-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel

variable [Facts]

def fn_part1 {F : FTy → Type} [FloatOps F] (main_v13 : IVec S_ 1) (main_v16 : IVec S4096x64x128 1) : IVec S_ 1 :=
  let main_c_5 : IVec S_ 1 := constantI S_ 1 1#1
  let main_v17 : IVec S_ 1 := (fun x v => Host.reduce IntOp.andi x v reducesTo_S4096x64x128_S_d0_1_2 h_S_) main_v16 main_c_5
  let main_v18 : IVec S_ 1 := andi main_v13 main_v17
  main_v18

def fn {F : FTy → Type} [FloatOps F] (main_arg0 : FVec F S4096x64x128 .f32) (main_arg1 : FVec F S4096x64x128 .f32) (main_arg2 : FVec F S4096x64x128 .f32) (main_arg3 : FVec F S4096x64x128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S4096x64x128 .f32 := Host.absf main_arg1
  let main_cst_0 : FVec F S_ .f32 := constant S_ .f32 0x7F800000#32
  let main_v5 : FVec F S4096x64x128 .f32 := broadcastInDim S4096x64x128 ![] bcast_S_S4096x64x128 main_cst_0
  let main_v6 : IVec S4096x64x128 1 := cmpf .olt main_v4 main_v5
  let main_c_1 : IVec S_ 1 := constantI S_ 1 1#1
  let main_v7 : IVec S_ 1 := (fun x v => Host.reduce IntOp.andi x v reducesTo_S4096x64x128_S_d0_1_2 h_S_) main_v6 main_c_1
  let main_v8 : IVec S_ 1 := andi main_v3 main_v7
  let main_v9 : FVec F S4096x64x128 .f32 := Host.absf main_arg2
  let main_cst_2 : FVec F S_ .f32 := constant S_ .f32 0x7F800000#32
  let main_v10 : FVec F S4096x64x128 .f32 := broadcastInDim S4096x64x128 ![] bcast_S_S4096x64x128 main_cst_2
  let main_v11 : IVec S4096x64x128 1 := cmpf .olt main_v9 main_v10
  let main_c_3 : IVec S_ 1 := constantI S_ 1 1#1
  let main_v12 : IVec S_ 1 := (fun x v => Host.reduce IntOp.andi x v reducesTo_S4096x64x128_S_d0_1_2 h_S_) main_v11 main_c_3
  let main_v13 : IVec S_ 1 := andi main_v8 main_v12
  let main_v14 : FVec F S4096x64x128 .f32 := Host.absf main_arg3
  let main_cst_4 : FVec F S_ .f32 := constant S_ .f32 0x7F800000#32
  let main_v15 : FVec F S4096x64x128 .f32 := broadcastInDim S4096x64x128 ![] bcast_S_S4096x64x128 main_cst_4
  let main_v16 : IVec S4096x64x128 1 := cmpf .olt main_v14 main_v15
  fn_part1 (F := F) main_v13 main_v16
-- ==== Kernel.lean ====
abbrev S4096x64x128 : Shape := ⟨3, ![4096, 64, 128]⟩
abbrev S4096x256 : Shape := ⟨2, ![4096, 256]⟩
abbrev S128x64x128 : Shape := ⟨3, ![128, 64, 128]⟩
abbrev S128x256 : Shape := ⟨2, ![128, 256]⟩
abbrev S128x128 : Shape := ⟨2, ![128, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S4096x64x128, .f32⟩
  | .hbm, ⟨3, _⟩ => ⟨S4096x64x128, .f32⟩
  | .hbm, ⟨4, _⟩ => ⟨S4096x256, .f32⟩
  | .local _ .vmem, ⟨0, _⟩ => ⟨S128x64x128, .f32⟩
  | .local _ .vmem, ⟨1, _⟩ => ⟨S128x64x128, .f32⟩
  | .local _ .vmem, ⟨2, _⟩ => ⟨S128x64x128, .f32⟩
  | .local _ .vmem, ⟨3, _⟩ => ⟨S128x64x128, .f32⟩
  | .local _ .vmem, ⟨4, _⟩ => ⟨S128x64x128, .f32⟩
  | .local _ .vmem, ⟨5, _⟩ => ⟨S128x64x128, .f32⟩
  | .local _ .vmem, ⟨6, _⟩ => ⟨S128x64x128, .f32⟩
  | .local _ .vmem, ⟨7, _⟩ => ⟨S128x64x128, .f32⟩
  | .local _ .vmem, ⟨8, _⟩ => ⟨S128x256, .f32⟩
  | .local _ .vmem, ⟨9, _⟩ => ⟨S128x256, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x64x128_S128x64x128_0_0_0 : ∀ a, (![0, 0, 0] : Fin 3 → Nat) a + S128x64x128.size a ≤ S128x64x128.size a
  h_S128x64x128 : 0 < S128x64x128.numel
  reduces_S128x64x128_S128x128 : S128x64x128.Reduces [1] S128x128
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S4096x64x128.size a
  hwx0_0 : ∀ i : grid0.Coords, EltTy.bits .f32 = 32 ∨ (Rect.block (s := S4096x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x128.size a ≤ S4096x64x128.size a
  hwx0_1 : ∀ i : grid0.Coords, EltTy.bits .f32 = 32 ∨ (Rect.block (s := S4096x64x128) S128x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x128.size a ≤ S4096x64x128.size a
  hwx0_2 : ∀ i : grid0.Coords, EltTy.bits .f32 = 32 ∨ (Rect.block (s := S4096x64x128) S128x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x128.size a ≤ S4096x64x128.size a
  hwx0_3 : ∀ i : grid0.Coords, EltTy.bits .f32 = 32 ∨ (Rect.block (s := S4096x64x128) S128x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S4096x256.size a
  hwx0_4 : ∀ i : grid0.Coords, EltTy.bits .f32 = 32 ∨ (Rect.block (s := S4096x256) S128x256.size (cc0_transform_4 i) (hinb0_4 i)).WholeWords (EltTy.packing .f32)

variable [Facts₀]

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S_ : Shape := ⟨0, ![]⟩
abbrev S4096x128 : Shape := ⟨2, ![4096, 128]⟩
abbrev S4096x256 : Shape := ⟨2, ![4096, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S4096x64x128, .f32⟩
  | .hbm, ⟨3, _⟩ => ⟨S4096x64x128, .f32⟩
  | .hbm, ⟨4, _⟩ => ⟨S4096x64x128, .f32⟩
  | .hbm, ⟨5, _⟩ => ⟨S_, .f32⟩
  | .hbm, ⟨6, _⟩ => ⟨S4096x128, .f32⟩
  | .hbm, ⟨7, _⟩ => ⟨S4096x64x128, .f32⟩
  | .hbm, ⟨8, _⟩ => ⟨S_, .f32⟩
  | .hbm, ⟨9, _⟩ => ⟨S4096x128, .f32⟩
  | .hbm, ⟨10, _⟩ => ⟨S4096x256, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  reducesTo_S4096x64x128_S4096x128_d1 : S4096x64x128.ReducesTo [1] S4096x128
  h_S_ : 0 < S_.numel
  concatenates_S4096x128_S4096x128_S4096x256_d1 : Shape.Concatenates [S4096x128, S4096x128] S4096x256 1

variable [Facts₀]

class Facts : Prop extends Facts₀ where

variable [Facts]
-- ==== Proof.PairSums.lean ====
/-
  The function both programs compute, and its restriction to a block of 128 rows.

  From four arrays a0, a1, a2, a3 of shape [4096, 64, 128] the result is the [4096, 256] array whose entry (b, l) is
      Σ_{k < 64} a0[b, k, l] · a1[b, k, l]                 for l < 128,
      Σ_{k < 64} a2[b, k, l - 128] · a3[b, k, l - 128]     for 128 ≤ l < 256:
  the two products summed over the middle axis and laid side by side along the last axis. On the extended reals the
  sums are sums of a commutative monoid, so nothing here needs the entries to be finite.

  `pairCat` is that array; `pairCatB` is the same function of four [128, 64, 128] blocks, a [128, 256] block. When the four
  blocks are rows 128·T … 128·T + 127 of the four arrays, the block function is rows 128·T … 128·T + 127 of the array
  function (`pairCatB_eq_pairCat`): row p of the block is row 128·T + p of the array, column for column.
-/
import Idealize.ShloMosaic.PureOps.Ideal
import Idealize.ShloMosaic.Lib.ValueIdx

noncomputable section

namespace Cert.PairSums

open Idealize.ShloMosaic Idealize.ShloMosaic.ValueIdx

/-- The position of a column of the 256-wide result inside its 128-wide half: l for l < 128, l - 128 for
    128 ≤ l < 256. -/
def lane (l : Nat) : Fin 128 := ⟨l % 128, Nat.mod_lt l (by decide)⟩

/-- Σ_{k < 64} u[p, k, q] · v[p, k, q] for a pair of [4096, 64, 128] arrays. -/
def dotMid (u v : (⟨3, ![4096, 64, 128]⟩ : Shape).Idx → EReal) (p : Fin 4096) (q : Fin 128) : EReal :=
  ∑ k : Fin 64, u (ix3 p k q) * v (ix3 p k q)

/-- Σ_{k < 64} u[p, k, q] · v[p, k, q] for a pair of [128, 64, 128] blocks. -/
def dotMidB (u v : (⟨3, ![128, 64, 128]⟩ : Shape).Idx → EReal) (p : Fin 128) (q : Fin 128) : EReal :=
  ∑ k : Fin 64, u (ix3 p k q) * v (ix3 p k q)

/-- The [4096, 256] result: the first pair's sums in columns 0 … 127, the second pair's in columns 128 … 255. -/
def pairCat (a0 a1 a2 a3 : (⟨3, ![4096, 64, 128]⟩ : Shape).Idx → EReal) : (⟨2, ![4096, 256]⟩ : Shape).Idx → EReal :=
  fun i => if (i 1).val < 128 then dotMid a0 a1 ⟨(i 0).val, (i 0).isLt⟩ (lane (i 1).val)
    else dotMid a2 a3 ⟨(i 0).val, (i 0).isLt⟩ (lane (i 1).val)

/-- The same function of four [128, 64, 128] blocks: a [128, 256] block. -/
def pairCatB (x0 x1 x2 x3 : (⟨3, ![128, 64, 128]⟩ : Shape).Idx → EReal) : (⟨2, ![128, 256]⟩ : Shape).Idx → EReal :=
  fun y => if (y 1).val < 128 then dotMidB x0 x1 ⟨(y 0).val, (y 0).isLt⟩ (lane (y 1).val)
    else dotMidB x2 x3 ⟨(y 0).val, (y 0).isLt⟩ (lane (y 1).val)

/-- A column l < 128 of the result reads the first pair: entry (p, l) is the first pair's sum at (p, l). -/
theorem pairCat_left (a0 a1 a2 a3 : (⟨3, ![4096, 64, 128]⟩ : Shape).Idx → EReal) (i : (⟨2, ![4096, 256]⟩ : Shape).Idx)
    (p : Fin 4096) (q : Fin 128) (h0 : (i 0).val = p.val) (h1 : (i 1).val = q.val) :
    pairCat a0 a1 a2 a3 i = dotMid a0 a1 p q := by
  have hq := q.isLt
  have ep : (⟨(i 0).val, (i 0).isLt⟩ : Fin 4096) = p := Fin.ext h0
  have eq : lane (i 1).val = q := Fin.ext (by show (i 1).val % 128 = q.val; omega)
  unfold pairCat
  rw [if_pos (by omega), ep, eq]

/-- A column 128 + q of the result reads the second pair: entry (p, 128 + q) is the second pair's sum at (p, q). -/
theorem pairCat_right (a0 a1 a2 a3 : (⟨3, ![4096, 64, 128]⟩ : Shape).Idx → EReal) (i : (⟨2, ![4096, 256]⟩ : Shape).Idx)
    (p : Fin 4096) (q : Fin 128) (h0 : (i 0).val = p.val) (h1 : (i 1).val = 128 + q.val) :
    pairCat a0 a1 a2 a3 i = dotMid a2 a3 p q := by
  have hq := q.isLt
  have ep : (⟨(i 0).val, (i 0).isLt⟩ : Fin 4096) = p := Fin.ext h0
  have eq : lane (i 1).val = q := Fin.ext (by show (i 1).val % 128 = q.val; omega)
  unfold pairCat
  rw [if_neg (by omega), ep, eq]

/-- The same two readings of the block function. -/
theorem pairCatB_left (x0 x1 x2 x3 : (⟨3, ![128, 64, 128]⟩ : Shape).Idx → EReal) (y : (⟨2, ![128, 256]⟩ : Shape).Idx)
    (p q : Fin 128) (h0 : (y 0).val = p.val) (h1 : (y 1).val = q.val) :
    pairCatB x0 x1 x2 x3 y = dotMidB x0 x1 p q := by
  have hq := q.isLt
  have ep : (⟨(y 0).val, (y 0).isLt⟩ : Fin 128) = p := Fin.ext h0
  have eq : lane (y 1).val = q := Fin.ext (by show (y 1).val % 128 = q.val; omega)
  unfold pairCatB
  rw [if_pos (by omega), ep, eq]

theorem pairCatB_right (x0 x1 x2 x3 : (⟨3, ![128, 64, 128]⟩ : Shape).Idx → EReal) (y : (⟨2, ![128, 256]⟩ : Shape).Idx)
    (p q : Fin 128) (h0 : (y 0).val = p.val) (h1 : (y 1).val = 128 + q.val) :
    pairCatB x0 x1 x2 x3 y = dotMidB x2 x3 p q := by
  have hq := q.isLt
  have ep : (⟨(y 0).val, (y 0).isLt⟩ : Fin 128) = p := Fin.ext h0
  have eq : lane (y 1).val = q := Fin.ext (by show (y 1).val % 128 = q.val; omega)
  unfold pairCatB
  rw [if_neg (by omega), ep, eq]

/-- If block row p of u', v' is array row p' of u, v (all 64 × 128 entries), the two rows' sums of products agree. -/
theorem dotMidB_eq_dotMid (u' v' : (⟨3, ![128, 64, 128]⟩ : Shape).Idx → EReal)
    (u v : (⟨3, ![4096, 64, 128]⟩ : Shape).Idx → EReal) (p : Fin 128) (p' : Fin 4096) (q : Fin 128)
    (hu : ∀ k : Fin 64, u' (ix3 p k q) = u (ix3 p' k q)) (hv : ∀ k : Fin 64, v' (ix3 p k q) = v (ix3 p' k q)) :
    dotMidB u' v' p q = dotMid u v p' q := by
  unfold dotMidB dotMid
  exact Finset.sum_congr rfl fun k _ => by rw [hu k, hv k]

/-- ROWS 128·T … 128·T + 127: when each block is those rows of its array, entry y of the block function is entry i of the
    array function, for i in row 128·T + (row of y) and in y's column. -/
theorem pairCatB_eq_pairCat (x0 x1 x2 x3 : (⟨3, ![128, 64, 128]⟩ : Shape).Idx → EReal)
    (a0 a1 a2 a3 : (⟨3, ![4096, 64, 128]⟩ : Shape).Idx → EReal) (T : Nat)
    (h0 : ∀ (p : Fin 128) (k : Fin 64) (q : Fin 128) (p' : Fin 4096), p'.val = T * 128 + p.val → x0 (ix3 p k q) = a0 (ix3 p' k q))
    (h1 : ∀ (p : Fin 128) (k : Fin 64) (q : Fin 128) (p' : Fin 4096), p'.val = T * 128 + p.val → x1 (ix3 p k q) = a1 (ix3 p' k q))
    (h2 : ∀ (p : Fin 128) (k : Fin 64) (q : Fin 128) (p' : Fin 4096), p'.val = T * 128 + p.val → x2 (ix3 p k q) = a2 (ix3 p' k q))
    (h3 : ∀ (p : Fin 128) (k : Fin 64) (q : Fin 128) (p' : Fin 4096), p'.val = T * 128 + p.val → x3 (ix3 p k q) = a3 (ix3 p' k q))
    (y : (⟨2, ![128, 256]⟩ : Shape).Idx) (i : (⟨2, ![4096, 256]⟩ : Shape).Idx)
    (hr : (i 0).val = T * 128 + (y 0).val) (hc : (i 1).val = (y 1).val) :
    pairCatB x0 x1 x2 x3 y = pairCat a0 a1 a2 a3 i := by
  unfold pairCatB pairCat
  rw [hc]
  split
  · exact dotMidB_eq_dotMid x0 x1 a0 a1 _ _ _ (fun k => h0 _ k _ _ hr) (fun k => h1 _ k _ _ hr)
  · exact dotMidB_eq_dotMid x2 x3 a2 a3 _ _ _ (fun k => h2 _ k _ _ hr) (fun k => h3 _ k _ _ hr)

end Cert.PairSums

end
-- ==== Proof.BodyBlock.lean ====
/-
  What the kernel body leaves in its [128, 256] output buffer, as one function of the four [128, 64, 128] input blocks.

  The body multiplies the first two blocks entry by entry and sums the product over the middle axis (64 terms) into a
  [128, 128] value, does the same with the last two blocks, and stores the first value into columns 0 … 127 and the
  second into columns 128 … 255 of the buffer. A sum over one axis from the zero accumulator is, on the extended reals,
  the plain sum Σ_k of the entries along that axis. So each stored value at (p, q) is Σ_k u[p,k,q]·v[p,k,q], both stores
  agree with the one block function `pairCatB` on the columns they write, and together they fill the buffer.
-/
import proofs.«157626_j61933428408454_2_alg».proof.Proof.Gen.KernelIdeal.Frame
import proofs.«157626_j61933428408454_2_alg».proof.Proof.PairSums
import Idealize.ShloMosaic.PureOps.Ideal.Laws
import Idealize.ShloMosaic.Lib.Pipeline.Value
import Idealize.ShloMosaic.Lib.ValueIdx

noncomputable section

namespace Cert.KernelIdeal.Body

open Cert.KernelIdeal Cert.KernelIdeal.Gen Cert.PairSums
open Idealize.ShloMosaic Idealize.ShloMosaic.ValueIdx

theorem zeros3 : (![0, 0, 0] : Fin 3 → Nat) = fun _ => 0 := funext fun a => by fin_cases a <;> rfl

/-- The product of two blocks summed over the middle axis from zero, at (p, q): Σ_{k < 64} u[p,k,q] · v[p,k,q].
    The source index over (p, q) with k inserted on axis 1 is (p, k, q). -/
theorem mulSum_apply (u v : Vec Ideal S128x64x128 .f32) (h : S128x64x128.Reduces [1] S128x128) (hφ : FKind.Formats .f32)
    (hacc : (0x00000000#32 : BitVec 32) = FKind.add.neutral .f32 hφ) (p q : Fin 128) :
    multiReduction (F := Ideal) .add [1] S128x128 (mulf u v) 0x00000000#32 h hφ hacc (ix2 p q) = dotMidB u v p q := by
  refine (Ideal.multiReduction_add_single (mulf u v) 0x00000000#32 h hφ hacc (ix2 p q)).trans ?_
  unfold dotMidB
  refine Finset.sum_congr rfl fun k _ => ?_
  have e : h.lift (ix2 p q) k = ix3 p k q :=
    funext fun a => Fin.ext (by match a with | ⟨0, _⟩ => rfl | ⟨1, _⟩ => rfl | ⟨2, _⟩ => rfl)
  rw [e]
  rfl

/-- The value stored into the left half, at (p, q). -/
theorem pay1_apply (v0 v1 : Vec Ideal S128x64x128 .f32) (p q : Fin 128) :
    k0_pay1 (F := Ideal) v0 v1 (ix2 p q) = dotMidB v0 v1 p q :=
  mulSum_apply v0 v1 reduces_S128x64x128_S128x128 (.inl rfl) rfl p q

/-- The value stored into the right half, at (p, q). -/
theorem pay2_apply (v4 v5 : Vec Ideal S128x64x128 .f32) (p q : Fin 128) :
    k0_pay2 (F := Ideal) v4 v5 (ix2 p q) = dotMidB v4 v5 p q :=
  mulSum_apply v4 v5 reduces_S128x64x128_S128x128 (.inl rfl) rfl p q

/-- THE BUFFER AFTER THE BODY is the block function of the four input blocks: the store into columns 128 … 255 holds
    the second pair's sums, the store into columns 0 … 127 the first pair's, and the two rectangles fill the buffer. -/
theorem out_eq (x0 x1 x2 x3 : Vec Ideal S128x64x128 .f32) :
    out0_4 (F := Ideal) x0 x1 x2 x3 = pairCatB x0 x1 x2 x3 := by
  funext y
  unfold out0_4
  simp only [View.ld_unit_zero (S := S128x64x128) zeros3]
  refine View.canon_apply_of_pieces (Val := Elt Ideal) (S := S128x256) (e := .f32) (pairCatB x0 x1 x2 x3) _ ?_ y (cover0_4 _ _ y)
  intro pc hpc
  rcases List.mem_cons.mp hpc with rfl | hpc
  · intro x
    obtain ⟨p, q, rfl⟩ : ∃ (p q : Fin 128), x = ix2 p q := ⟨x 0, x 1, eq_ix2 x⟩
    exact (pay2_apply x2 x3 p q).trans (pairCatB_right x0 x1 x2 x3 _ p q (Nat.zero_add _ |>.trans (Nat.one_mul _)) (congrArg (128 + ·) (Nat.one_mul _))).symm
  · rcases List.mem_singleton.mp hpc with rfl
    intro x
    obtain ⟨p, q, rfl⟩ : ∃ (p q : Fin 128), x = ix2 p q := ⟨x 0, x 1, eq_ix2 x⟩
    exact (pay1_apply x0 x1 p q).trans (pairCatB_left x0 x1 x2 x3 _ p q (Nat.zero_add _ |>.trans (Nat.one_mul _)) (Nat.zero_add _ |>.trans (Nat.one_mul _))).symm

end Cert.KernelIdeal.Body

end
-- ==== Proof.KernelArray.lean ====
/-
  From blocks to the array: after the run the kernel's result array is `pairCat` of its four arguments.

  The grid has 32 points. At point t every input window holds rows 128·t … 128·t + 127 of its [4096, 64, 128] array (all
  64 × 128 entries of each row), and the output window writes back rows 128·t … 128·t + 127 (all 256 columns) of the
  [4096, 256] result. The buffer written back is the block function of the four input blocks, and the block function of
  rows 128·t … of the arrays is rows 128·t … of the array function; so point t writes block t of `pairCat`. Row r of
  the result lies in the block of point r / 128, so the 32 blocks fill the array.
-/
import proofs.«157626_j61933428408454_2_alg».proof.Proof.Gen.KernelIdeal.Value
import proofs.«157626_j61933428408454_2_alg».proof.Proof.BodyBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.KernelIdeal.Value Cert.PairSums

variable (m : (ℓ : Loc nD τ sig) → Buf (Elt Ideal) ℓ) (ρ : Dev nD → PrngReg)

/-! ## The index maps, over the 32 grid points: point t's block is block-row t, block-column 0, of every array -/

theorem in_idx_facts0 : ∀ t : Fin cfg0.N, win0_0.index t (0 : Fin 3) = t.val ∧ win0_0.index t (1 : Fin 3) = 0
    ∧ win0_0.index t (2 : Fin 3) = 0 :=
  (by decide +kernel : ∀ t : Fin grid0.N, _)

theorem in_idx_facts1 : ∀ t : Fin cfg0.N, win0_1.index t (0 : Fin 3) = t.val ∧ win0_1.index t (1 : Fin 3) = 0
    ∧ win0_1.index t (2 : Fin 3) = 0 :=
  (by decide +kernel : ∀ t : Fin grid0.N, _)

theorem in_idx_facts2 : ∀ t : Fin cfg0.N, win0_2.index t (0 : Fin 3) = t.val ∧ win0_2.index t (1 : Fin 3) = 0
    ∧ win0_2.index t (2 : Fin 3) = 0 :=
  (by decide +kernel : ∀ t : Fin grid0.N, _)

theorem in_idx_facts3 : ∀ t : Fin cfg0.N, win0_3.index t (0 : Fin 3) = t.val ∧ win0_3.index t (1 : Fin 3) = 0
    ∧ win0_3.index t (2 : Fin 3) = 0 :=
  (by decide +kernel : ∀ t : Fin grid0.N, _)

theorem out_idx_facts : ∀ t : Fin cfg0.N, win0_4.index t (0 : Fin 2) = t.val ∧ win0_4.index t (1 : Fin 2) = 0 :=
  (by decide +kernel : ∀ t : Fin grid0.N, _)

/-! ## The input blocks as rows of the arrays -/

/-- Input window 0's block at point t is rows 128·t … 128·t + 127 of its array: entry (p, k, q) of the block is entry
    (128·t + p, k, q) of the array. -/
theorem iblk0_apply (c : Dev nD) (t : Fin cfg0.N) (p : Fin 128) (k : Fin 64) (q : Fin 128) (p' : Fin 4096)
    (hp : p'.val = t.val * 128 + p.val) :
    (iblk m c 0 t : Vec Ideal S128x64x128 .f32) (ix3 p k q) = (V m c main_arg0 : S4096x64x128.Idx → EReal) (ix3 p' k q) := by
  obtain ⟨e0, e1, e2⟩ := in_idx_facts0 t
  show V m c main_arg0 (((cfg0.win 0).blk t).view.emb (ix3 p k q)) = _
  refine congrArg (V m c main_arg0) ?_
  funext a; apply Fin.ext
  match a with
  | ⟨0, _⟩ => show win0_0.index t (0 : Fin 3) * 128 + 1 * p.val = p'.val; rw [e0, hp]; omega
  | ⟨1, _⟩ => show win0_0.index t (1 : Fin 3) * 64 + 1 * k.val = k.val; rw [e1]; omega
  | ⟨2, _⟩ => show win0_0.index t (2 : Fin 3) * 128 + 1 * q.val = q.val; rw [e2]; omega

/-- Input window 1's block at point t is rows 128·t … 128·t + 127 of its array: entry (p, k, q) of the block is entry
    (128·t + p, k, q) of the array. -/
theorem iblk1_apply (c : Dev nD) (t : Fin cfg0.N) (p : Fin 128) (k : Fin 64) (q : Fin 128) (p' : Fin 4096)
    (hp : p'.val = t.val * 128 + p.val) :
    (iblk m c 1 t : Vec Ideal S128x64x128 .f32) (ix3 p k q) = (V m c main_arg1 : S4096x64x128.Idx → EReal) (ix3 p' k q) := by
  obtain ⟨e0, e1, e2⟩ := in_idx_facts1 t
  show V m c main_arg1 (((cfg0.win 1).blk t).view.emb (ix3 p k q)) = _
  refine congrArg (V m c main_arg1) ?_
  funext a; apply Fin.ext
  match a with
  | ⟨0, _⟩ => show win0_1.index t (0 : Fin 3) * 128 + 1 * p.val = p'.val; rw [e0, hp]; omega
  | ⟨1, _⟩ => show win0_1.index t (1 : Fin 3) * 64 + 1 * k.val = k.val; rw [e1]; omega
  | ⟨2, _⟩ => show win0_1.index t (2 : Fin 3) * 128 + 1 * q.val = q.val; rw [e2]; omega

/-- Input window 2's block at point t is rows 128·t … 128·t + 127 of its array: entry (p, k, q) of the block is entry
    (128·t + p, k, q) of the array. -/
theorem iblk2_apply (c : Dev nD) (t : Fin cfg0.N) (p : Fin 128) (k : Fin 64) (q : Fin 128) (p' : Fin 4096)
    (hp : p'.val = t.val * 128 + p.val) :
    (iblk m c 2 t : Vec Ideal S128x64x128 .f32) (ix3 p k q) = (V m c main_arg2 : S4096x64x128.Idx → EReal) (ix3 p' k q) := by
  obtain ⟨e0, e1, e2⟩ := in_idx_facts2 t
  show V m c main_arg2 (((cfg0.win 2).blk t).view.emb (ix3 p k q)) = _
  refine congrArg (V m c main_arg2) ?_
  funext a; apply Fin.ext
  match a with
  | ⟨0, _⟩ => show win0_2.index t (0 : Fin 3) * 128 + 1 * p.val = p'.val; rw [e0, hp]; omega
  | ⟨1, _⟩ => show win0_2.index t (1 : Fin 3) * 64 + 1 * k.val = k.val; rw [e1]; omega
  | ⟨2, _⟩ => show win0_2.index t (2 : Fin 3) * 128 + 1 * q.val = q.val; rw [e2]; omega

/-- Input window 3's block at point t is rows 128·t … 128·t + 127 of its array: entry (p, k, q) of the block is entry
    (128·t + p, k, q) of the array. -/
theorem iblk3_apply (c : Dev nD) (t : Fin cfg0.N) (p : Fin 128) (k : Fin 64) (q : Fin 128) (p' : Fin 4096)
    (hp : p'.val = t.val * 128 + p.val) :
    (iblk m c 3 t : Vec Ideal S128x64x128 .f32) (ix3 p k q) = (V m c main_arg3 : S4096x64x128.Idx → EReal) (ix3 p' k q) := by
  obtain ⟨e0, e1, e2⟩ := in_idx_facts3 t
  show V m c main_arg3 (((cfg0.win 3).blk t).view.emb (ix3 p k q)) = _
  refine congrArg (V m c main_arg3) ?_
  funext a; apply Fin.ext
  match a with
  | ⟨0, _⟩ => show win0_3.index t (0 : Fin 3) * 128 + 1 * p.val = p'.val; rw [e0, hp]; omega
  | ⟨1, _⟩ => show win0_3.index t (1 : Fin 3) * 64 + 1 * k.val = k.val; rw [e1]; omega
  | ⟨2, _⟩ => show win0_3.index t (2 : Fin 3) * 128 + 1 * q.val = q.val; rw [e2]; omega

/-! ## What a point writes back -/

/-- WHAT POINT t WRITES BACK is block t of `pairCat` of the arrays as the region finds them. -/
theorem flushed_eq (c : Dev nD) (t : Fin cfg0.N) :
    (dats m 0 c).flushed 4 t = ((cfg0.win 4).blk t).view.read (Elt Ideal)
      (pairCat (V m c main_arg0) (V m c main_arg1) (V m c main_arg2) (V m c main_arg3)) := by
  rw [flushed4]
  obtain ⟨e0, e1⟩ := out_idx_facts t
  funext j
  show out0_4 (iblk m c 0 t) (iblk m c 1 t) (iblk m c 2 t) (iblk m c 3 t) j
    = pairCat (V m c main_arg0) (V m c main_arg1) (V m c main_arg2) (V m c main_arg3) (((cfg0.win 4).blk t).view.emb j)
  refine (congrFun (Body.out_eq (iblk m c 0 t) (iblk m c 1 t) (iblk m c 2 t) (iblk m c 3 t)) j).trans ?_
  refine pairCatB_eq_pairCat (iblk m c 0 t) (iblk m c 1 t) (iblk m c 2 t) (iblk m c 3 t)
    (V m c main_arg0) (V m c main_arg1) (V m c main_arg2) (V m c main_arg3) t.val
    (iblk0_apply m c t) (iblk1_apply m c t) (iblk2_apply m c t) (iblk3_apply m c t) j (((cfg0.win 4).blk t).view.emb j) ?_ ?_
  · show win0_4.index t (0 : Fin 2) * 128 + 1 * (j 0).val = t.val * 128 + (j 0).val
    rw [e0]; omega
  · show win0_4.index t (1 : Fin 2) * 256 + 1 * (j 1).val = (j 1).val
    rw [e1]; omega

/-! ## The blocks fill the array -/

/-- An index of the result is in point t's block iff each coordinate is in the block's range on its axis. -/
theorem mem_blk (t : Fin cfg0.N) (i : S4096x256.Idx) :
    i ∈ ((cfg0.win 4).blk t).view.set ↔ ∀ a : Fin 2, win0_4.index t a * S128x256.size a ≤ (i a).val
      ∧ (i a).val < win0_4.index t a * S128x256.size a + S128x256.size a := by
  show i ∈ ((View.whole main_v0).slice (win0_4.rect t)).set ↔ _
  rw [View.set_slice_whole, Rect.mem_set_unit]
  exact Iff.rfl

/-- Row r of the result is in the block of point r / 128. -/
theorem cover (i : S4096x256.Idx) : ∃ t : Fin cfg0.N, (cfg0.win 4).flush t = true ∧ i ∈ ((cfg0.win 4).blk t).view.set := by
  have hi0 : (i 0).val < 4096 := (i 0).isLt
  have hi1 : (i 1).val < 256 := (i 1).isLt
  have hN : grid0.N = 32 := N_0
  have ht : (i 0).val / 128 < cfg0.N := by show (i 0).val / 128 < grid0.N; rw [hN]; omega
  obtain ⟨e0, e1⟩ := out_idx_facts ⟨(i 0).val / 128, ht⟩
  refine ⟨⟨(i 0).val / 128, ht⟩, flush0_4 _, ?_⟩
  rw [mem_blk]
  intro a
  match a with
  | ⟨0, _⟩ =>
    show win0_4.index ⟨(i 0).val / 128, ht⟩ (0 : Fin 2) * 128 ≤ (i 0).val
      ∧ (i 0).val < win0_4.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, ht⟩ (1 : Fin 2) * 256 ≤ (i 1).val
      ∧ (i 1).val < win0_4.index ⟨(i 0).val / 128, ht⟩ (1 : Fin 2) * 256 + 256
    rw [e1]; omega

/-- THE RESULT ARRAY after the run is `pairCat` of the argument arrays. -/
theorem final (c : Dev nD) : (dats m 0 c).arrAt 4 cfg0.N
    = pairCat (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-! ## The run, read -/

/-- Every weakly fair execution of the kernel's program ends with the result array at `pairCat` of the arguments and
    the arguments unchanged. -/
theorem run : θ_run defs (onTc (τ := τ) (main (F := Ideal))) ⟨m, fun _ => 0, ρ⟩ fun r => ∀ c : Dev nD,
      r.2.mem ((c : Thread nD τ).loc main_v0)
        = pairCat (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Array

end
-- ==== Proof.ReferenceArray.lean ====
/-
  The reference's result is the array function `pairCat` of its four arguments.

  The reference multiplies the first two [4096, 64, 128] arrays entry by entry and sums the product over the middle axis
  starting from the constant 0, does the same with the last two, and joins the two [4096, 128] results along the last axis
  into [4096, 256]. On the extended reals the sum from 0 is 0 + Σ_k (product at (p, k, q)) = Σ_k, the source index of the
  sum at (p, q) with k on the summed axis being (p, k, q); and an entry of the join at a column below 128 is the first
  piece's entry in that column, at a column 128 + q the second piece's entry in column q.
-/
import proofs.«157626_j61933428408454_2_alg».proof.Proof.Gen.ReferenceIdeal.Read
import proofs.«157626_j61933428408454_2_alg».proof.Proof.PairSums
import Idealize.ShloMosaic.PureOps.Ideal.Laws
import Idealize.ShloMosaic.Lib.Pipeline.Value
import Idealize.ShloMosaic.Lib.ValueIdx

noncomputable section

namespace Cert.ReferenceIdeal.RefArray

open Cert.ReferenceIdeal Cert.ReferenceIdeal.Gen Cert.ReferenceIdeal.Read Cert.PairSums
open Idealize.ShloMosaic Idealize.ShloMosaic.ValueIdx

/-- The first pair's product summed over the middle axis from 0, at (p, q): Σ_{k < 64} x0[p,k,q] · x1[p,k,q]. -/
theorem sum01_apply (x0 x1 : (⟨S4096x64x128, .f32⟩ : BufTy).Contents (Elt Ideal)) (p : Fin 4096) (q : Fin 128) :
    val_main_v1 (F := Ideal) x0 x1 (ix2 p q) = dotMid x0 x1 p q := by
  rw [val_main_v1_apply]
  simp only [val_main_cst_apply, Ideal.ofBits_def, Ideal.ofBits_zero_f32, zero_add]
  unfold dotMid
  refine Finset.sum_congr rfl fun k _ => ?_
  have e : idx_main_v1 (ix2 p q) k = ix3 p k q :=
    funext fun a => Fin.ext (by match a with | ⟨0, _⟩ => rfl | ⟨1, _⟩ => rfl | ⟨2, _⟩ => rfl)
  rw [e]
  rfl

/-- The second pair's, likewise. -/
theorem sum23_apply (x2 x3 : (⟨S4096x64x128, .f32⟩ : BufTy).Contents (Elt Ideal)) (p : Fin 4096) (q : Fin 128) :
    val_main_v3 (F := Ideal) x2 x3 (ix2 p q) = dotMid x2 x3 p q := by
  rw [val_main_v3_apply]
  simp only [val_main_cst_0_apply, Ideal.ofBits_def, Ideal.ofBits_zero_f32, zero_add]
  unfold dotMid
  refine Finset.sum_congr rfl fun k _ => ?_
  have e : idx_main_v3 (ix2 p q) k = ix3 p k q :=
    funext fun a => Fin.ext (by match a with | ⟨0, _⟩ => rfl | ⟨1, _⟩ => rfl | ⟨2, _⟩ => rfl)
  rw [e]
  rfl

/-- THE REFERENCE'S RESULT is `pairCat` of the arguments: an entry in a column below 128 comes from the first
    piece of the join, an entry in column 128 + q from the second piece at column q. -/
theorem result_eq (x0 x1 x2 x3 : (⟨S4096x64x128, .f32⟩ : BufTy).Contents (Elt Ideal)) :
    val_main_v4 (F := Ideal) x0 x1 x2 x3 = pairCat x0 x1 x2 x3 := by
  funext i
  obtain ⟨p, l, rfl⟩ : ∃ (p : Fin 4096) (l : Fin 256), i = ix2 p l := ⟨i 0, i 1, eq_ix2 i⟩
  unfold val_main_v4
  by_cases hl : l.val < 128
  · refine (concatenate_pair_apply_left (t := S4096x256) (s₁ := S4096x128) (s₂ := S4096x128) (1 : Fin 2) _ _
      concatenates_S4096x128_S4096x128_S4096x256_d1 (ix2 p l) rfl
      (ix2 p (⟨l.val, hl⟩ : Fin 128)) (fun b => by match b with | ⟨0, _⟩ => rfl | ⟨1, _⟩ => rfl)).trans ?_
    rw [sum01_apply]
    exact (pairCat_left x0 x1 x2 x3 _ p ⟨l.val, hl⟩ rfl rfl).symm
  · have hl' : l.val - 128 < 128 := by have := l.isLt; omega
    refine (concatenate_pair_apply_right (t := S4096x256) (s₁ := S4096x128) (s₂ := S4096x128) (1 : Fin 2) _ _
      concatenates_S4096x128_S4096x128_S4096x256_d1 (ix2 p l) rfl rfl
      (ix2 p (⟨l.val - 128, hl'⟩ : Fin 128))
      (fun b hb => by match b with | ⟨0, _⟩ => rfl | ⟨1, _⟩ => exact absurd rfl hb)
      (by show (l.val - 128) + 128 = l.val; omega)).trans ?_
    rw [sum23_apply]
    exact (pairCat_right x0 x1 x2 x3 _ p ⟨l.val - 128, hl'⟩ rfl (by show l.val = 128 + (l.val - 128); omega)).symm

end Cert.ReferenceIdeal.RefArray

end
-- ==== Proof.lean ====
/-
  Two products summed over the middle axis and laid side by side: the kernel against its array-level reference.

  Both programs take four arrays a0, a1, a2, a3 of shape [4096, 64, 128] and produce the [4096, 256] array whose entry
  (b, l) is Σ_{k < 64} a0[b,k,l] · a1[b,k,l] for l < 128 and Σ_{k < 64} a2[b,k,l-128] · a3[b,k,l-128] for l ≥ 128
  (`Cert.PairSums.pairCat`). The kernel computes it 128 rows at a time over a grid of 32 points, storing the two sums
  into the two 128-column halves of a [128, 256] block; the reference multiplies, sums and concatenates whole arrays.
  On the extended reals a sum over an axis from zero is the plain finite sum on both sides, so the two results are the
  same function of the arguments entry by entry, with no appeal to the entries being finite:
    * the kernel's result array after its run is `pairCat` of the arguments (`Cert.KernelIdeal.Array.run`);
    * the reference's result term is `pairCat` of the arguments (`Cert.ReferenceIdeal.RefArray.result_eq`).
  The three frames are the programs' runs with the results dropped; the idealization rewrote no operation of the kernel,
  so that conjunct is `True`.
-/
import proofs.«157626_j61933428408454_2_alg».proof.Defs
import proofs.«157626_j61933428408454_2_alg».proof.Proof.Gen.Kernel
import proofs.«157626_j61933428408454_2_alg».proof.Proof.Gen.Kernel.Skeleton
import proofs.«157626_j61933428408454_2_alg».proof.Proof.Gen.Kernel.Launch
import proofs.«157626_j61933428408454_2_alg».proof.Proof.Gen.Kernel.Points
import proofs.«157626_j61933428408454_2_alg».proof.Proof.Gen.Kernel.Frame
import proofs.«157626_j61933428408454_2_alg».proof.Proof.Gen.KernelIdeal
import proofs.«157626_j61933428408454_2_alg».proof.Proof.Gen.KernelIdeal.Skeleton
import proofs.«157626_j61933428408454_2_alg».proof.Proof.Gen.KernelIdeal.Launch
import proofs.«157626_j61933428408454_2_alg».proof.Proof.Gen.KernelIdeal.Points
import proofs.«157626_j61933428408454_2_alg».proof.Proof.Gen.KernelIdeal.Frame
import proofs.«157626_j61933428408454_2_alg».proof.Proof.Gen.KernelIdeal.Value
import proofs.«157626_j61933428408454_2_alg».proof.Proof.Gen.ReferenceIdeal
import proofs.«157626_j61933428408454_2_alg».proof.Proof.Gen.ReferenceIdeal.Run
import proofs.«157626_j61933428408454_2_alg».proof.Proof.Gen.ReferenceIdeal.Read
import proofs.«157626_j61933428408454_2_alg».proof.Proof.Gen.Pre_finite_inputs
import proofs.«157626_j61933428408454_2_alg».proof.Proof.PairSums
import proofs.«157626_j61933428408454_2_alg».proof.Proof.BodyBlock
import proofs.«157626_j61933428408454_2_alg».proof.Proof.KernelArray
import proofs.«157626_j61933428408454_2_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the four arguments both programs end with the result at `pairCat` of those arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefArray.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
